-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x22x128 : Shape := ⟨3, ![2048, 22, 128]⟩
abbrev S128x128 : Shape := ⟨2, ![128, 128]⟩
abbrev S128 : Shape := ⟨1, ![128]⟩
abbrev S_ : Shape := ⟨0, ![]⟩

class Facts : Prop where
  bcast_S_S2048x22x128 : S_.BroadcastsInDim S2048x22x128 (![] : Fin 0 → Fin S2048x22x128.rank)
  reducesTo_S2048x22x128_S_d0_1_2 : S2048x22x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S2048x22x128 .f32) (main_arg1 : FVec F S128x128 .f32) (main_arg2 : FVec F S128 .f32) : IVec S_ 1 :=
  let main_v0 : FVec F S2048x22x128 .f32 := Host.absf main_arg0
  let main_cst : FVec F S_ .f32 := constant S_ .f32 0x7F800000#32
  let main_v1 : FVec F S2048x22x128 .f32 := broadcastInDim S2048x22x128 ![] bcast_S_S2048x22x128 main_cst
  let main_v2 : IVec S2048x22x128 1 := cmpf .olt main_v0 main_v1
  let main_c : IVec S_ 1 := constantI S_ 1 1#1
  let main_v3 : IVec S_ 1 := (fun x v => Host.reduce IntOp.andi x v reducesTo_S2048x22x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S2048x22x128 : Shape := ⟨3, ![2048, 22, 128]⟩
abbrev S128x128 : Shape := ⟨2, ![128, 128]⟩
abbrev S128 : Shape := ⟨1, ![128]⟩
abbrev S2048x22x22x128 : Shape := ⟨4, ![2048, 22, 22, 128]⟩
abbrev S64x22x128 : Shape := ⟨3, ![64, 22, 128]⟩
abbrev S64x22x22x128 : Shape := ⟨4, ![64, 22, 22, 128]⟩
abbrev S1x22x128 : Shape := ⟨3, ![1, 22, 128]⟩
abbrev S22x128 : Shape := ⟨2, ![22, 128]⟩
abbrev S22x1x128 : Shape := ⟨3, ![22, 1, 128]⟩
abbrev S22x22x128 : Shape := ⟨3, ![22, 22, 128]⟩
abbrev S1x1x128 : Shape := ⟨3, ![1, 1, 128]⟩
abbrev S1x22x22x128 : Shape := ⟨4, ![1, 22, 22, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x22x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S2048x22x22x128, .f32⟩
  | .local _ .vmem, ⟨0, _⟩ => ⟨S64x22x128, .f32⟩
  | .local _ .vmem, ⟨1, _⟩ => ⟨S64x22x128, .f32⟩
  | .local _ .vmem, ⟨2, _⟩ => ⟨S128x128, .f32⟩
  | .local _ .vmem, ⟨3, _⟩ => ⟨S128, .f32⟩
  | .local _ .vmem, ⟨4, _⟩ => ⟨S64x22x22x128, .f32⟩
  | .local _ .vmem, ⟨5, _⟩ => ⟨S64x22x22x128, .f32⟩
  | _, _ => ⟨S2048x22x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v5 : Index := Scalar.indexCast arg5
  let c0_3 : Index := 0#32
  let c0_4 : Index := 0#32
  ![v5.toNat, 0, 0]
def k0_off2 (k0_t1 : Fin k0_t1_loop.trips) : Fin 4 → Nat :=
  let c0_i32 : BitVec 32 := 0#32
  let c1_i32 : BitVec 32 := 1#32
  let arg5 : BitVec 32 := Scf.iv c0_i32 c1_i32 k0_t1
  let v18 : Index := Scalar.indexCast arg5
  let c0_5 : Index := 0#32
  let c0_6 : Index := 0#32
  let c0_7 : Index := 0#32
  ![v18.toNat, 0, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x22x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x22x22x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  h_S1x22x128 : 0 < S1x22x128.numel
  shapeCasts_S1x22x128_S22x128 : S1x22x128.ShapeCasts S22x128
  shapeCasts_S22x128_S1x22x128 : S22x128.ShapeCasts S1x22x128
  shapeCasts_S22x128_S22x1x128 : S22x128.ShapeCasts S22x1x128
  broadcasts_S1x22x128_S22x22x128 : S1x22x128.Broadcasts S22x22x128
  broadcasts_S22x1x128_S22x22x128 : S22x1x128.Broadcasts S22x22x128
  shapeCasts_S128_S1x1x128 : S128.ShapeCasts S1x1x128
  broadcasts_S1x1x128_S22x22x128 : S1x1x128.Broadcasts S22x22x128
  h_S1x22x22x128 : 0 < S1x22x22x128.numel
  shapeCasts_S1x22x22x128_S22x22x128 : S1x22x22x128.ShapeCasts S22x22x128
  shapeCasts_S22x22x128_S1x22x22x128 : S22x22x128.ShapeCasts S1x22x22x128
  dot_S22x128_S128x128_S22x128_1_0_0_1_n_n_wf : DotDims.WF S22x128 S128x128 S22x128 [1] [0] [0] [1] [] []
  hrank0 : 0 < grid0.rank
  k0_t1_ok : k0_t1_loop.OK
  k0_off1_inb : ∀ k0_t1 : Fin k0_t1_loop.trips, ∀ a, (k0_off1 k0_t1) a + S1x22x128.size a ≤ S64x22x128.size a
  k0_off2_inb : ∀ k0_t1 : Fin k0_t1_loop.trips, ∀ a, (k0_off2 k0_t1) a + S1x22x22x128.size a ≤ S64x22x22x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x22x128.size a ≤ S2048x22x128.size a
  hwx0_0 : ∀ i : grid0.Coords, EltTy.bits .f32 = 32 ∨ (Rect.block (s := S2048x22x128) S64x22x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x22x22x128.size a ≤ S2048x22x22x128.size a
  hwx0_3 : ∀ i : grid0.Coords, EltTy.bits .f32 = 32 ∨ (Rect.block (s := S2048x22x22x128) S64x22x22x128.size (cc0_transform_3 i) (hinb0_3 i)).WholeWords (EltTy.packing .f32)

variable [Facts₀]

def dot_S22x128_S128x128_S22x128_1_0_0_1_n_n : DotDims S22x128 S128x128 S22x128 where
  lhsContracting := [1]
  rhsContracting := [0]
  lhsNonContracting := [0]
  rhsNonContracting := [1]
  lhsBatch := []
  rhsBatch := []
  wf := dot_S22x128_S128x128_S22x128_1_0_0_1_n_n_wf

abbrev win0_0 : Pipeline.Window sig grid0 :=
  Pipeline.Window.ofSpec (Memref.whole main_arg0) S64x22x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x22x22x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x22x128 : Shape := ⟨3, ![2048, 22, 128]⟩
abbrev S128x128 : Shape := ⟨2, ![128, 128]⟩
abbrev S128 : Shape := ⟨1, ![128]⟩
abbrev S2048x1x22x128 : Shape := ⟨4, ![2048, 1, 22, 128]⟩
abbrev S2048x22x1x128 : Shape := ⟨4, ![2048, 22, 1, 128]⟩
abbrev S2048x22x22x128 : Shape := ⟨4, ![2048, 22, 22, 128]⟩
abbrev S1x1x1x128 : Shape := ⟨4, ![1, 1, 1, 128]⟩

abbrev nBuf : Space → Nat
  | .hbm => 12
  | .vmem => 0
  | .smem => 0
  | _ => 0

abbrev bufTy : (tb : Table) → Fin (tcTables nBuf tb) → BufTy
  | .hbm, ⟨0, _⟩ => ⟨S2048x22x128, .f32⟩
  | .hbm, ⟨1, _⟩ => ⟨S128x128, .f32⟩
  | .hbm, ⟨2, _⟩ => ⟨S128, .f32⟩
  | .hbm, ⟨3, _⟩ => ⟨S2048x1x22x128, .f32⟩
  | .hbm, ⟨4, _⟩ => ⟨S2048x22x1x128, .f32⟩
  | .hbm, ⟨5, _⟩ => ⟨S2048x22x22x128, .f32⟩
  | .hbm, ⟨6, _⟩ => ⟨S2048x22x22x128, .f32⟩
  | .hbm, ⟨7, _⟩ => ⟨S2048x22x22x128, .f32⟩
  | .hbm, ⟨8, _⟩ => ⟨S2048x22x22x128, .f32⟩
  | .hbm, ⟨9, _⟩ => ⟨S1x1x1x128, .f32⟩
  | .hbm, ⟨10, _⟩ => ⟨S2048x22x22x128, .f32⟩
  | .hbm, ⟨11, _⟩ => ⟨S2048x22x22x128, .f32⟩
  | _, _ => ⟨S2048x22x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S2048x22x128_S2048x1x22x128_0_2_3 : S2048x22x128.BroadcastsInDim S2048x1x22x128 (![0, 2, 3] : Fin 3 → Fin S2048x1x22x128.rank)
  bcast_S2048x22x128_S2048x22x1x128_0_1_3 : S2048x22x128.BroadcastsInDim S2048x22x1x128 (![0, 1, 3] : Fin 3 → Fin S2048x22x1x128.rank)
  bcast_S2048x1x22x128_S2048x22x22x128_0_1_2_3 : S2048x1x22x128.BroadcastsInDim S2048x22x22x128 (![0, 1, 2, 3] : Fin 4 → Fin S2048x22x22x128.rank)
  bcast_S2048x22x1x128_S2048x22x22x128_0_1_2_3 : S2048x22x1x128.BroadcastsInDim S2048x22x22x128 (![0, 1, 2, 3] : Fin 4 → Fin S2048x22x22x128.rank)
  bcast_S128_S1x1x1x128_3 : S128.BroadcastsInDim S1x1x1x128 (![3] : Fin 1 → Fin S1x1x1x128.rank)
  bcast_S1x1x1x128_S2048x22x22x128_0_1_2_3 : S1x1x1x128.BroadcastsInDim S2048x22x22x128 (![0, 1, 2, 3] : Fin 4 → Fin S2048x22x22x128.rank)
  dot_S2048x22x22x128_S128x128_S2048x22x22x128_3_1_012_0_n_n_wf : DotDims.WF S2048x22x22x128 S128x128 S2048x22x22x128 [3] [1] [0, 1, 2] [0] [] []

variable [Facts₀]

def dot_S2048x22x22x128_S128x128_S2048x22x22x128_3_1_012_0_n_n : DotDims S2048x22x22x128 S128x128 S2048x22x22x128 where
  lhsContracting := [3]
  rhsContracting := [1]
  lhsNonContracting := [0, 1, 2]
  rhsNonContracting := [0]
  lhsBatch := []
  rhsBatch := []
  wf := dot_S2048x22x22x128_S128x128_S2048x22x22x128_3_1_012_0_n_n_wf

class Facts : Prop extends Facts₀ where

variable [Facts]
-- ==== Proof.FiniteInputs.lean ====
/-
  What the precondition gives. `finite_inputs` says of each float input that every entry `x` has `|x| < +∞`, the three
  `jnp.all`s joined by `and`. On the extended reals `|x| = max x (−x)` is below `⊤` exactly when `x` is neither `⊤` nor
  `⊥`, that is when `x` is a real number. Read back here for the node features and the weights, the two inputs whose
  entries the law of Proof/LibSumOfDifferences.lean multiplies; the bias is only ever added last, so its entries are not
  needed.
-/
import proofs.«171930_j63513976373866_1_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

/-- The rank-zero shape has one index. -/
instance : Subsingleton S_.Idx := ⟨fun a b => funext fun d => d.elim0⟩

/-- The pattern the predicate compares against denotes `+∞`. -/
theorem infinity : Ideal.ofBits .f32 0x7F800000#32 = (⊤ : EReal) := by simp [Ideal.ofBits, Ideal.ieee]

/-- An extended real whose absolute value is below `+∞` is a real number. -/
theorem real_of_abs_lt_top (x : EReal)
    (h : Ideal.cmp .olt (max x (-x)) (Ideal.ofBits .f32 0x7F800000#32) = 1#1) : ∃ r : ℝ, x = (r : EReal) := by
  rw [infinity] at h
  induction x using EReal.rec with
  | bot => simp [Ideal.cmp] at h
  | top => simp [Ideal.cmp] at h
  | coe r => exact ⟨r, rfl⟩

/-- One `jnp.all(|x| < +∞)` that holds makes every entry of `x` a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ValueIdx.ix0 = 1#1) (i : s.Idx) : ∃ r : ℝ, x i = (r : EReal) :=
  real_of_abs_lt_top (x i) (Host.reduce_andi_all _ _ hr hu ValueIdx.ix0 h i)

variable [Facts]
open Facts

/-- Under the precondition every node feature and every weight is a real number. -/
theorem entries_real (src : FVec Ideal S2048x22x128 .f32) (W : FVec Ideal S128x128 .f32) (b : FVec Ideal S128 .f32)
    (h : fn (F := Ideal) src W b = fun _ => 1#1) :
    (∀ i, ∃ r : ℝ, src i = (r : EReal)) ∧ (∀ i, ∃ r : ℝ, W i = (r : EReal)) := by
  have h0 := congrFun h ValueIdx.ix0
  dsimp only [fn] at h0
  obtain ⟨h01, _⟩ := IntOp.andi_eq_one.1 h0
  obtain ⟨hs, hw⟩ := IntOp.andi_eq_one.1 h01
  exact ⟨fun i => real_of_all src _ _ _ hs i, fun i => real_of_all W _ _ _ hw i⟩

end Cert.Pre_finite_inputs.Finite

end
-- ==== Proof.LibSumOfDifferences.lean ====
/-
  A weighted sum of differences is the difference of the weighted sums, on the extended reals, for real terms.

  Over the real numbers `Σ_d (a d − b d) · w d = Σ_d a d · w d − Σ_d b d · w d` by distributivity of the product over the
  difference and by splitting the sum. On the extended reals neither step holds at the infinities (`(⊤ − ⊤) · w` is not
  `⊤ · w − ⊤ · w`), so the law is stated for terms that are embedded real numbers, over any finite index type: both
  sides are then the embedding of one real number. It is what relates a linear map applied to a difference of two
  vectors to the difference of its values on them, when the map is a finite sum of products read on the extended
  reals. `coe_sum`: the embedding of the reals carries a finite sum to the sum of the embedded terms.
-/
import Idealize.ShloMosaic.PureOps.Ideal

noncomputable section

namespace Cert.LibSumOfDifferences

open scoped BigOperators

/-- The embedding of the reals in the extended reals carries a finite sum to the sum of the embedded terms. -/
theorem coe_sum {ι : Type} (s : Finset ι) (f : ι → ℝ) :
    ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- For real `a`, `b` and real weights `w` over a finite index type: the weighted sum of the differences is the
    difference of the weighted sums, as extended reals. Both sides are the embedding of one real number. -/
theorem sum_sub_mul {ι : Type} [Fintype ι] (a b w : ι → ℝ) :
    (∑ d, ((a d : EReal) - (b d : EReal)) * (w d : EReal))
      = (∑ d, (a d : EReal) * (w d : EReal)) - ∑ d, (b d : EReal) * (w d : EReal) := by
  have key : (∑ d, (a d - b d) * w d) = (∑ d, a d * w d) - ∑ d, b d * w d := by
    simp only [sub_mul, Finset.sum_sub_distrib]
  simp only [← EReal.coe_sub, ← EReal.coe_mul, ← coe_sum, key]

end Cert.LibSumOfDifferences

end
-- ==== Proof.Spec.lean ====
/-
  The specification. For one graph with 22 nodes of 128 features each, `s n d`, weights `w d e` (input feature `d`,
  output feature `e`) and a bias `bias e`, the value on the edge from node `i` to node `j` at output feature `e` is

      edgeValue s w bias i j e = Σ_d s j d · w d e − Σ_d s i d · w d e + bias e :

  the linear layer applied to each node, then the difference of the two nodes' images, then the bias. This is the order
  the kernel computes in. The reference applies the layer to the difference of the nodes' features,
  `Σ_d (s j d − s i d) · w d e + bias e`; the two agree when the features and the weights are real numbers
  (`sum_diff_mul_eq`, by the law of Proof/LibSumOfDifferences.lean). The bias is added last on both sides, so nothing is
  asked of it.

  `pairwise src W b` is the whole result array [2048, 22, 22, 128]: graph `g`'s edge value, with the weight matrix stored
  as (output, input), `w d e = W[e, d]`.
-/
import proofs.«171930_j63513976373866_1_alg».proof.Proof.LibSumOfDifferences
import Idealize.ShloMosaic.Lib.ValueIdx

noncomputable section

namespace Cert.PairwiseLinear

open Idealize.ShloMosaic Idealize.ShloMosaic.ValueIdx Cert.LibSumOfDifferences
open scoped BigOperators

/-- The edge value of one graph: node `j`'s image under the linear layer minus node `i`'s, plus the bias. -/
def edgeValue (s : Fin 22 → Fin 128 → EReal) (w : Fin 128 → Fin 128 → EReal) (bias : Fin 128 → EReal)
    (i j : Fin 22) (e : Fin 128) : EReal :=
  (∑ d : Fin 128, s j d * w d e) - (∑ d : Fin 128, s i d * w d e) + bias e

/-- The linear layer applied to the difference of two nodes' features is the edge value, when the features and the
    weights are real numbers. -/
theorem sum_diff_mul_eq (s : Fin 22 → Fin 128 → EReal) (w : Fin 128 → Fin 128 → EReal) (bias : Fin 128 → EReal)
    (hs : ∀ n d, ∃ r : ℝ, s n d = (r : EReal)) (hw : ∀ d e, ∃ r : ℝ, w d e = (r : EReal)) (i j : Fin 22) (e : Fin 128) :
    (∑ d : Fin 128, (s j d - s i d) * w d e) + bias e = edgeValue s w bias i j e := by
  choose sr hsr using hs
  choose wr hwr using hw
  unfold edgeValue
  simp only [hsr, hwr]
  exact congrArg (· + bias e) (sum_sub_mul (fun d => sr j d) (fun d => sr i d) (fun d => wr d e))

/-- The whole result: at `(g, i, j, e)` the edge value of graph `g`, the weights read as `w d e = W[e, d]`. -/
def pairwise (src : (⟨3, ![2048, 22, 128]⟩ : Shape).Idx → EReal) (W : (⟨2, ![128, 128]⟩ : Shape).Idx → EReal)
    (b : (⟨1, ![128]⟩ : Shape).Idx → EReal) : (⟨4, ![2048, 22, 22, 128]⟩ : Shape).Idx → EReal :=
  fun y => edgeValue (fun n d => src (ix3 (y 0) n d)) (fun d e => W (ix2 e d)) (fun e => b (ix1 e)) (y 1) (y 2) (y 3)

end Cert.PairwiseLinear

end
-- ==== Proof.ReferenceValue.lean ====
/-
  The reference is the specification. Read one operation at a time (the generated reading of its run), the reference's
  result at `(g, i, j, e)` is `Σ_d (src[g, j, d] − src[g, i, d]) · W[e, d] + b[e]`: the two broadcasts of `src` put node
  `j` along the third axis and node `i` along the second, the contraction runs over the last axis of the difference and
  the second axis of `W`, and the bias is broadcast along the last axis. When the entries of `src` and `W` are real
  numbers that is the edge value `Σ_d src[g, j, d] · W[e, d] − Σ_d src[g, i, d] · W[e, d] + b[e]` (Proof/Spec.lean).
-/
import proofs.«171930_j63513976373866_1_alg».proof.Proof.Gen.ReferenceIdeal.Read
import proofs.«171930_j63513976373866_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.PairwiseLinear
open scoped BigOperators

/-- The reference's result array is `pairwise src W b`, for real node features and weights. -/
theorem result_eq (src : (⟨S2048x22x128, .f32⟩ : BufTy).Contents (Elt Ideal)) (W : (⟨S128x128, .f32⟩ : BufTy).Contents (Elt Ideal))
    (b : (⟨S128, .f32⟩ : BufTy).Contents (Elt Ideal))
    (hsrc : ∀ i, ∃ r : ℝ, src i = (r : EReal)) (hW : ∀ i, ∃ r : ℝ, W i = (r : EReal)) :
    val_main_v8 (F := Ideal) src W b = pairwise src W b := by
  funext y
  -- the operands' indices, by coordinates: node j of graph g, node i of graph g, row e of W, entry e of b
  have e1 : ∀ k : Fin 128, idx_main_v0 (idx_main_v2 (lidx_main_v5 y k)) = ix3 (y 0) (y 2) k := fun k =>
    funext fun a => Fin.ext (by match a with | ⟨0, _⟩ => rfl | ⟨1, _⟩ => rfl | ⟨2, _⟩ => rfl)
  have e2 : ∀ k : Fin 128, idx_main_v1 (idx_main_v3 (lidx_main_v5 y k)) = ix3 (y 0) (y 1) k := fun k =>
    funext fun a => Fin.ext (by match a with | ⟨0, _⟩ => rfl | ⟨1, _⟩ => rfl | ⟨2, _⟩ => rfl)
  have e3 : ∀ k : Fin 128, ridx_main_v5 y k = ix2 (y 3) k := fun k =>
    funext fun a => Fin.ext (by match a with | ⟨0, _⟩ => rfl | ⟨1, _⟩ => rfl)
  have e4 : idx_main_v6 (idx_main_v7 y) = ix1 (y 3) :=
    funext fun a => Fin.ext (by match a with | ⟨0, _⟩ => rfl)
  rw [val_main_v8_apply, val_main_v7_apply, val_main_v6_apply, val_main_v5_apply]
  simp only [val_main_v4_apply, val_main_v2_apply, val_main_v3_apply, val_main_v0_apply, val_main_v1_apply,
    e1, e2, e3, e4, Ideal.addf_def, Ideal.subf_def]
  exact sum_diff_mul_eq (fun n d => src (ix3 (y 0) n d)) (fun d e => W (ix2 e d)) (fun e => b (ix1 e))
    (fun n d => hsrc _) (fun d e => hW _) (y 1) (y 2) (y 3)

end Cert.ReferenceIdeal.RefValue

end
-- ==== Proof.TripValue.lean ====
/-
  One trip of the kernel's loop, read at an index. A trip loads one graph's node features `x : [1, 22, 128]`, multiplies
  them by the resident weights `w : [128, 128]` (input feature by output feature) into `y : [22, 128]`,
  `y[n, e] = Σ_d x[0, n, d] · w[d, e]`, lays `y` out twice — as one row of a [1, 22, 128] array, broadcast over the
  first node axis, and as one column of a [22, 1, 128] array, broadcast over the second — subtracts, adds the bias
  broadcast from [1, 1, 128], and stores the [22, 22, 128] result as the [1, 22, 22, 128] row of the output block.
  Read at `(0, i, j, e)` this is `y[j, e] − y[i, e] + bias[e]`: the edge value of the loaded graph
  (`Cert.PairwiseLinear.edgeValue`, Proof/Spec.lean). The changes of float format are the identity on the extended
  reals and the matrix unit's accumulator is the zero splat, so the product is the plain sum.
-/
import proofs.«171930_j63513976373866_1_alg».proof.Proof.Gen.KernelIdeal.Skeleton
import proofs.«171930_j63513976373866_1_alg».proof.Proof.Spec
import Idealize.ShloMosaic.Lib.Pipeline.Value
import Idealize.ShloMosaic.Lib.ValueIdx
import Idealize.ShloMosaic.PureOps.Ideal.Laws

noncomputable section

namespace Cert.KernelIdeal.TripValue

open Cert.KernelIdeal Cert.KernelIdeal.Gen Idealize.ShloMosaic Idealize.ShloMosaic.ValueIdx Cert.PairwiseLinear
open scoped BigOperators

/-- The one coordinate of an axis of extent one. -/
abbrev u : Fin 1 := 0

/-! ## The layout operations, each read at an index given by coordinates -/

/-- Dropping the leading coordinate of `(0, i, j, e)` leaves `(i, j, e)`. -/
theorem tail4 (i j : Fin 22) (e : Fin 128) : (fun a : Fin 3 => (ix4 u i j e : S1x22x22x128.Idx) a.succ) = ix3 i j e :=
  funext fun a => match a with | ⟨0, _⟩ => rfl | ⟨1, _⟩ => rfl | ⟨2, _⟩ => rfl

/-- Dropping the leading coordinate of `(0, n, e)` leaves `(n, e)`. -/
theorem tail3 (n : Fin 22) (e : Fin 128) : (fun a : Fin 2 => (ix3 u n e : S1x22x128.Idx) a.succ) = ix2 n e :=
  funext fun a => match a with | ⟨0, _⟩ => rfl | ⟨1, _⟩ => rfl

/-- The [22, 22, 128] result stored as the [1, 22, 22, 128] row of the block: `(0, i, j, e)` reads `(i, j, e)`. -/
theorem storedRow (v : FVec Ideal S22x22x128 .f32) (h : S22x22x128.ShapeCasts S1x22x22x128) (i j : Fin 22) (e : Fin 128) :
    shapeCast S1x22x22x128 v h (ix4 u i j e) = v (ix3 i j e) :=
  (shapeCast_addUnit_apply ![22, 22, 128] v h (ix4 u i j e)).trans (congrArg v (tail4 i j e))

/-- `y` as the one row of a [1, 22, 128] array: `(0, n, e)` reads `(n, e)`. -/
theorem asRow (y : FVec Ideal S22x128 .f32) (h : S22x128.ShapeCasts S1x22x128) (n : Fin 22) (e : Fin 128) :
    shapeCast S1x22x128 y h (ix3 u n e) = y (ix2 n e) :=
  (shapeCast_addUnit_apply ![22, 128] y h (ix3 u n e)).trans (congrArg y (tail3 n e))

/-- `y` as the one column of a [22, 1, 128] array: `(n, 0, e)` reads `(n, e)` (the same row-major position). -/
theorem asColumn (y : FVec Ideal S22x128 .f32) (h : S22x128.ShapeCasts S22x1x128) (n : Fin 22) (e : Fin 128) :
    shapeCast S22x1x128 y h (ix3 n u e) = y (ix2 n e) :=
  shapeCast_apply y h (ix3 n u e) (ix2 n e) (by
    rw [Shape.rowMajor_val_two, Shape.rowMajor_val_three]
    show n.val * 128 + e.val = (n.val * 1 + 0) * 128 + e.val
    omega)

/-- The bias as a [1, 1, 128] array: `(0, 0, e)` reads `e`. -/
theorem asBias (b : FVec Ideal S128 .f32) (h : S128.ShapeCasts S1x1x128) (e : Fin 128) :
    shapeCast S1x1x128 b h (ix3 u u e) = b (ix1 e) :=
  shapeCast_apply b h (ix3 u u e) (ix1 e) (by
    rw [Shape.rowMajor_val_one, Shape.rowMajor_val_three]
    show e.val = (0 * 1 + 0) * 128 + e.val
    omega)

/-- The row broadcast over the first node axis: `(i, j, e)` reads `(0, j, e)`. -/
theorem overFirst (x : FVec Ideal S1x22x128 .f32) (h : S1x22x128.Broadcasts S22x22x128) (i j : Fin 22) (e : Fin 128) :
    broadcastTo S22x22x128 x h (ix3 i j e) = x (ix3 u j e) :=
  broadcastTo_apply x h (ix3 i j e) (ix3 u j e) (fun a => match a with
    | ⟨0, _⟩ => by show (0 : ℕ) = if (1 : ℕ) = 1 then 0 else i.val; rw [if_pos rfl]
    | ⟨1, _⟩ => by show j.val = if (22 : ℕ) = 1 then 0 else j.val; rw [if_neg (by decide)]
    | ⟨2, _⟩ => by show e.val = if (128 : ℕ) = 1 then 0 else e.val; rw [if_neg (by decide)])

/-- The column broadcast over the second node axis: `(i, j, e)` reads `(i, 0, e)`. -/
theorem overSecond (x : FVec Ideal S22x1x128 .f32) (h : S22x1x128.Broadcasts S22x22x128) (i j : Fin 22) (e : Fin 128) :
    broadcastTo S22x22x128 x h (ix3 i j e) = x (ix3 i u e) :=
  broadcastTo_apply x h (ix3 i j e) (ix3 i u e) (fun a => match a with
    | ⟨0, _⟩ => by show i.val = if (22 : ℕ) = 1 then 0 else i.val; rw [if_neg (by decide)]
    | ⟨1, _⟩ => by show (0 : ℕ) = if (1 : ℕ) = 1 then 0 else j.val; rw [if_pos rfl]
    | ⟨2, _⟩ => by show e.val = if (128 : ℕ) = 1 then 0 else e.val; rw [if_neg (by decide)])

/-- The bias broadcast over both node axes: `(i, j, e)` reads `(0, 0, e)`. -/
theorem overBoth (x : FVec Ideal S1x1x128 .f32) (h : S1x1x128.Broadcasts S22x22x128) (i j : Fin 22) (e : Fin 128) :
    broadcastTo S22x22x128 x h (ix3 i j e) = x (ix3 u u e) :=
  broadcastTo_apply x h (ix3 i j e) (ix3 u u e) (fun a => match a with
    | ⟨0, _⟩ => by show (0 : ℕ) = if (1 : ℕ) = 1 then 0 else i.val; rw [if_pos rfl]
    | ⟨1, _⟩ => by show (0 : ℕ) = if (1 : ℕ) = 1 then 0 else j.val; rw [if_pos rfl]
    | ⟨2, _⟩ => by show e.val = if (128 : ℕ) = 1 then 0 else e.val; rw [if_neg (by decide)])

/-- The loaded [1, 22, 128] features viewed [22, 128]: `(n, d)` reads `(0, n, d)` (the same row-major position). -/
theorem features (x : FVec Ideal S1x22x128 .f32) (h : S1x22x128.ShapeCasts S22x128) (n : Fin 22) (d : Fin 128) :
    shapeCast S22x128 x h (ix2 n d) = x (ix3 u n d) :=
  shapeCast_apply x h (ix2 n d) (ix3 u n d) (by
    rw [Shape.rowMajor_val_two, Shape.rowMajor_val_three]
    show (0 * 22 + n.val) * 128 + d.val = n.val * 128 + d.val
    omega)

/-! ## The product -/

/-- The product's left operand index at output `(n, e)` and contraction index `q`: row `n`, -/
theorem lhs0 (j : S22x128.Idx) (q : dot_S22x128_S128x128_S22x128_1_0_0_1_n_n.contr.Idx) : (dot_S22x128_S128x128_S22x128_1_0_0_1_n_n.lhsIdx j q 0).val = (j 0).val := by
  unfold DotDims.lhsIdx
  rw [dif_neg (show ¬(0 : Fin S22x128.rank) ∈ dot_S22x128_S128x128_S22x128_1_0_0_1_n_n.lhsBatch by decide), dif_pos (show (0 : Fin S22x128.rank) ∈ dot_S22x128_S128x128_S22x128_1_0_0_1_n_n.lhsNonContracting by decide)]
  rfl
/-- column `q`; -/
theorem lhs1 (j : S22x128.Idx) (q : dot_S22x128_S128x128_S22x128_1_0_0_1_n_n.contr.Idx) : (dot_S22x128_S128x128_S22x128_1_0_0_1_n_n.lhsIdx j q 1).val = (q ⟨0, by decide⟩).val :=
  dot_S22x128_S128x128_S22x128_1_0_0_1_n_n.lhsIdx_val_of_single rfl j q
/-- the right operand's: row `q`, -/
theorem rhs0 (j : S22x128.Idx) (q : dot_S22x128_S128x128_S22x128_1_0_0_1_n_n.contr.Idx) : (dot_S22x128_S128x128_S22x128_1_0_0_1_n_n.rhsIdx j q 0).val = (q ⟨0, by decide⟩).val :=
  dot_S22x128_S128x128_S22x128_1_0_0_1_n_n.rhsIdx_val_of_single rfl j q
/-- column `e`. -/
theorem rhs1 (j : S22x128.Idx) (q : dot_S22x128_S128x128_S22x128_1_0_0_1_n_n.contr.Idx) : (dot_S22x128_S128x128_S22x128_1_0_0_1_n_n.rhsIdx j q 1).val = (j 1).val := by
  unfold DotDims.rhsIdx
  rw [dif_neg (show ¬(1 : Fin S128x128.rank) ∈ dot_S22x128_S128x128_S22x128_1_0_0_1_n_n.rhsBatch by decide), dif_pos (show (1 : Fin S128x128.rank) ∈ dot_S22x128_S128x128_S22x128_1_0_0_1_n_n.rhsNonContracting by decide)]
  rfl

/-- The matrix unit's product into the zero accumulator, at `(n, e)`: the sum over the 128 input features of the left
    operand's row `n` times the right operand's column `e`. -/
theorem product (a : FVec Ideal S22x128 .bf16) (w : FVec Ideal S128x128 .bf16) (n : Fin 22) (e : Fin 128) :
    matmul dot_S22x128_S128x128_S22x128_1_0_0_1_n_n none a w (constant (F := Ideal) S22x128 .f32 0x00000000#32) (ix2 n e)
      = ∑ d : Fin 128, a (ix2 n d) * w (ix2 d e) := by
  simp only [matmul]
  rw [Ideal.matmul_constant_zero_apply, ← Equiv.sum_comp (contrEquiv1 dot_S22x128_S128x128_S22x128_1_0_0_1_n_n 128 rfl rfl).symm]
  refine Finset.sum_congr rfl fun k _ => ?_
  have hk := contrEquiv1_symm_val dot_S22x128_S128x128_S22x128_1_0_0_1_n_n 128 rfl rfl k
  have el : dot_S22x128_S128x128_S22x128_1_0_0_1_n_n.lhsIdx (ix2 n e) ((contrEquiv1 dot_S22x128_S128x128_S22x128_1_0_0_1_n_n 128 rfl rfl).symm k) = ix2 n k := funext fun a => Fin.ext (by
    match a with
    | ⟨0, _⟩ => exact lhs0 _ _
    | ⟨1, _⟩ => exact (lhs1 _ _).trans hk)
  have er : dot_S22x128_S128x128_S22x128_1_0_0_1_n_n.rhsIdx (ix2 n e) ((contrEquiv1 dot_S22x128_S128x128_S22x128_1_0_0_1_n_n 128 rfl rfl).symm k) = ix2 k e := funext fun a => Fin.ext (by
    match a with
    | ⟨0, _⟩ => exact (rhs0 _ _).trans hk
    | ⟨1, _⟩ => exact rhs1 _ _)
  rw [el, er]

/-! ## The trip's stored value -/

/-- What one trip stores, at `(0, i, j, e)`: the edge value of the loaded graph `x`, with the resident weights `w` read
    as (input feature, output feature) and the bias `b`. -/
theorem stored_apply (w : Vec Ideal S128x128 .f32) (b : Vec Ideal S128 .f32) (x : Vec Ideal S1x22x128 .f32)
    (i j : Fin 22) (e : Fin 128) :
    k0_pay1 (F := Ideal) w b x (ix4 u i j e)
      = edgeValue (fun n d => x (ix3 u n d)) (fun d e => w (ix2 d e)) (fun e => b (ix1 e)) i j e := by
  unfold k0_pay1
  rw [storedRow]
  show (broadcastTo S22x22x128 _ _ (ix3 i j e) - broadcastTo S22x22x128 _ _ (ix3 i j e)) + broadcastTo S22x22x128 _ _ (ix3 i j e) = _
  rw [overFirst, overSecond, overBoth, asRow, asColumn, asBias, product, product]
  unfold edgeValue
  simp only [truncf_apply, features, shapeCast_self]

end Cert.KernelIdeal.TripValue

end
-- ==== Proof.BlockValue.lean ====
/-
  What the kernel leaves in the output's staging buffer at one grid point. The body's loop runs over the 64 graphs of
  the input block; trip `k` loads graph `k`'s features (row `k` of the [64, 22, 128] block), and stores its edge values
  as row `k` of the [64, 22, 22, 128] output block. The run's record of this is a list of stores, one per trip, the
  last trip first. Every store agrees with ONE function of the output block's index,

      blockValue x w b (r, i, j, e) = the edge value of graph r of the block x, weights w, bias b,

  (the store of trip `k` covers exactly the indices with `r = k`, and there it holds graph `k`'s edge values), and the
  64 stores cover the block; so the buffer holds `blockValue` at every index, whatever it held before.
-/
import proofs.«171930_j63513976373866_1_alg».proof.Proof.Gen.KernelIdeal.Frame
import proofs.«171930_j63513976373866_1_alg».proof.Proof.TripValue

set_option maxRecDepth 16384

noncomputable section

namespace Cert.KernelIdeal.BlockValue

open Cert.KernelIdeal Cert.KernelIdeal.Gen Idealize.ShloMosaic Idealize.ShloMosaic.TcCoe Idealize.ShloMosaic.ValueIdx
open Idealize.SL Idealize.SL.Sem
open Cert.PairwiseLinear Cert.KernelIdeal.TripValue

/-- What the output block holds after the body: at `(r, i, j, e)` the edge value of graph `r` of the input block. -/
def blockValue (x : Vec Ideal S64x22x128 .f32) (w : Vec Ideal S128x128 .f32) (b : Vec Ideal S128 .f32) :
    Vec Ideal S64x22x22x128 .f32 :=
  fun y => edgeValue (fun n d => x (ix3 (y 0) n d)) (fun d e => w (ix2 d e)) (fun e => b (ix1 e)) (y 1) (y 2) (y 3)

theorem hz2 : (![0, 0] : Fin 2 → ℕ) = fun _ => 0 := funext fun a => by fin_cases a <;> rfl
theorem hz1 : (![0] : Fin 1 → ℕ) = fun _ => 0 := funext fun a => by fin_cases a; rfl

/-- Trip `k`'s load reads graph `k` of the block: entry `(0, n, d)` of what it loads is entry `(r, n, d)` of the block, `r`
    the trip's number. -/
theorem loaded_row (arg1 : Memref sig .tc .vmem S64x22x128 .f32) (harg1 : arg1.IsWhole) (x : Vec Ideal S64x22x128 .f32)
    (k : Fin k0_t1_loop.trips) (r : Fin 64) (hr : r.val = k.val) (n : Fin 22) (d : Fin 128) :
    View.readAt (Elt Ideal) arg1.view (Rect.unit (s := S64x22x128) (k0_off1 k) S1x22x128.size (k0_off1_inb k)).toLoadRect (harg1.unread x) (ix3 u n d)
      = x (ix3 r n d) := by
  rw [View.readAt_eq_ld, harg1.read_unread]
  show x ((Rect.unit (s := S64x22x128) (k0_off1 k) S1x22x128.size (k0_off1_inb k)).idx (ix3 u n d)) = x (ix3 r n d)
  refine congrArg x (funext fun a => Fin.ext ?_)
  match a with
  | ⟨0, _⟩ => show (k0_off1 k) 0 + 1 * (0 : ℕ) = r.val; rw [k0_off1_eq, hr]; rfl
  | ⟨1, _⟩ => show (k0_off1 k) 1 + 1 * n.val = n.val; rw [k0_off1_eq]; show 0 + 1 * n.val = n.val; omega
  | ⟨2, _⟩ => show (k0_off1 k) 2 + 1 * d.val = d.val; rw [k0_off1_eq]; show 0 + 1 * d.val = d.val; omega

/-- An index of a [1, 22, 22, 128] row, by its coordinates. -/
theorem row_index (z : S1x22x22x128.Idx) : z = ix4 u (z 1) (z 2) (z 3) :=
  funext fun a => match a with
    | ⟨0, h⟩ => Fin.ext (by have h1 : (z ⟨0, h⟩).val < 1 := (z ⟨0, h⟩).isLt; show (z ⟨0, h⟩).val = 0; omega)
    | ⟨1, _⟩ => rfl
    | ⟨2, _⟩ => rfl
    | ⟨3, _⟩ => rfl

/-- The store of trip `k` — the trip's stored value through the rectangle of row `k` of the output block — holds
    `blockValue` at every index it covers: its local index `(0, i, j, e)` lies at `(k, i, j, e)` of the block, and what
    it stores there is the edge value of the graph it loaded, graph `k`. -/
theorem store_agrees (arg1 : Memref sig .tc .vmem S64x22x128 .f32) (harg1 : arg1.IsWhole)
    (w : Vec Ideal S128x128 .f32) (b : Vec Ideal S128 .f32) (x : Vec Ideal S64x22x128 .f32) (k : Fin k0_t1_loop.trips)
    (z : S1x22x22x128.Idx) :
    k0_pay1 (F := Ideal) w b (View.readAt (Elt Ideal) arg1.view (Rect.unit (s := S64x22x128) (k0_off1 k) S1x22x128.size (k0_off1_inb k)).toLoadRect (harg1.unread x)) z
      = blockValue x w b ((Rect.unit (s := S64x22x22x128) (k0_off2 k) S1x22x22x128.size (k0_off2_inb k)).emb z) := by
  obtain ⟨i', j', e', rfl⟩ : ∃ (i' j' : Fin 22) (e' : Fin 128), z = ix4 u i' j' e' := ⟨_, _, _, row_index z⟩
  rw [stored_apply]
  unfold blockValue
  have h0 : (((Rect.unit (s := S64x22x22x128) (k0_off2 k) S1x22x22x128.size (k0_off2_inb k)).emb (ix4 u i' j' e')) 0).val = k.val := by
    show (k0_off2 k) 0 + 1 * (0 : ℕ) = k.val
    rw [k0_off2_eq]; rfl
  have h1 : ((Rect.unit (s := S64x22x22x128) (k0_off2 k) S1x22x22x128.size (k0_off2_inb k)).emb (ix4 u i' j' e')) 1 = i' :=
    Fin.ext (by show (k0_off2 k) 1 + 1 * i'.val = i'.val; rw [k0_off2_eq]; show 0 + 1 * i'.val = i'.val; omega)
  have h2 : ((Rect.unit (s := S64x22x22x128) (k0_off2 k) S1x22x22x128.size (k0_off2_inb k)).emb (ix4 u i' j' e')) 2 = j' :=
    Fin.ext (by show (k0_off2 k) 2 + 1 * j'.val = j'.val; rw [k0_off2_eq]; show 0 + 1 * j'.val = j'.val; omega)
  have h3 : ((Rect.unit (s := S64x22x22x128) (k0_off2 k) S1x22x22x128.size (k0_off2_inb k)).emb (ix4 u i' j' e')) 3 = e' :=
    Fin.ext (by show (k0_off2 k) 3 + 1 * e'.val = e'.val; rw [k0_off2_eq]; show 0 + 1 * e'.val = e'.val; omega)
  have hrow : (fun (n : Fin 22) (d : Fin 128) =>
        View.readAt (Elt Ideal) arg1.view (Rect.unit (s := S64x22x128) (k0_off1 k) S1x22x128.size (k0_off1_inb k)).toLoadRect (harg1.unread x) (ix3 u n d))
      = fun n d => x (ix3 (((Rect.unit (s := S64x22x22x128) (k0_off2 k) S1x22x22x128.size (k0_off2_inb k)).emb (ix4 u i' j' e')) 0) n d) :=
    funext fun n => funext fun d => loaded_row arg1 harg1 x k _ h0 n d
  rw [hrow, h1, h2, h3]

/-- The one store of trip `k` holds `blockValue` on the row it covers. -/
theorem trip_agrees (𝒱 : Variants) (c : Dev nD) (bd : Option 𝒱.V) (i : grid0.Coords) (arg1 : Memref sig .tc .vmem S64x22x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S64x22x22x128 .f32) (harg4 : arg4.IsWhole)
    (w : Vec Ideal S128x128 .f32) (b : Vec Ideal S128 .f32) (x : Vec Ideal S64x22x128 .f32) (k : Fin k0_t1_loop.trips) :
    ∀ p ∈ tripL_k0_t1 (F := Ideal) 𝒱 c bd i arg1 harg1 arg2 harg2 arg3 harg3 arg4 harg4 w b (harg1.unread x) k,
      ∀ z : p.1.shape.Idx, p.2 z = blockValue x w b (p.1.emb z) := by
  unfold tripL_k0_t1
  unfold trip_k0_t1
  dsimp only
  intro p hp z
  rw [List.mem_singleton] at hp
  subst hp
  exact store_agrees arg1 harg1 w b x k z

/-- Every store of the trips before `n` holds `blockValue` where it writes: trip by trip. -/
theorem stores_agree (𝒱 : Variants) (c : Dev nD) (bd : Option 𝒱.V) (i : grid0.Coords) (arg1 : Memref sig .tc .vmem S64x22x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S64x22x22x128 .f32) (harg4 : arg4.IsWhole)
    (w : Vec Ideal S128x128 .f32) (b : Vec Ideal S128 .f32) (x : Vec Ideal S64x22x128 .f32) :
    ∀ n : ℕ, n ≤ k0_t1_loop.trips → ∀ p ∈ pb_k0_t1 (F := Ideal) 𝒱 c bd i arg1 harg1 arg2 harg2 arg3 harg3 arg4 harg4 w b (harg1.unread x) n,
      ∀ z : p.1.shape.Idx, p.2 z = blockValue x w b (p.1.emb z)
  | 0, _ => fun p hp => absurd hp List.not_mem_nil
  | n + 1, h => fun p hp => by
    have hlt : n < k0_t1_loop.trips := h
    have e := pb_k0_t1_succ (F := Ideal) 𝒱 c bd i arg1 harg1 arg2 harg2 arg3 harg3 arg4 harg4 w b (harg1.unread x) ⟨n, hlt⟩
    change p ∈ pb_k0_t1 (F := Ideal) 𝒱 c bd i arg1 harg1 arg2 harg2 arg3 harg3 arg4 harg4 w b (harg1.unread x) ((⟨n, hlt⟩ : Fin k0_t1_loop.trips).val + 1) at hp
    rw [e] at hp
    rcases List.mem_append.mp hp with hp | hp
    · exact trip_agrees 𝒱 c bd i arg1 harg1 arg2 harg2 arg3 harg3 arg4 harg4 w b x ⟨n, hlt⟩ p hp
    · exact stores_agree 𝒱 c bd i arg1 harg1 arg2 harg2 arg3 harg3 arg4 harg4 w b x n (Nat.le_of_lt hlt) p hp

/-- THE BLOCK after the body, whatever the staging buffers and the point: `blockValue` of the three input blocks. -/
theorem block_apply (c : Dev nD) (i : grid0.Coords) (arg1 : Memref sig .tc .vmem S64x22x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S64x22x22x128 .f32) (harg4 : arg4.IsWhole)
    (x : Vec Ideal S64x22x128 .f32) (w : Vec Ideal S128x128 .f32) (b : Vec Ideal S128 .f32) (y : S64x22x22x128.Idx) :
    out0_A_3 (F := Ideal) c i arg1 harg1 arg2 harg2 arg3 harg3 arg4 harg4 x w b y = blockValue x w b y := by
  have hcov := cover0_A_3 (F := Ideal) c i arg1 harg1 arg2 harg2 arg3 harg3 arg4 harg4 x w b y
  unfold out0_A_3
  unfold kernelRun0_A at hcov ⊢
  dsimp only at hcov ⊢
  simp only [View.readAt_eq_ld, harg2.read_unread, harg3.read_unread, View.ld_unit_zero (S := S128x128) hz2,
    View.ld_unit_zero (S := S128) hz1] at hcov ⊢
  exact View.read_writes_apply_of_pieces _ _ (blockValue x w b) _
    (stores_agree Variants.none c none i arg1 harg1 arg2 harg2 arg3 harg3 arg4 harg4 w b x _ (le_refl _)) y hcov

end Cert.KernelIdeal.BlockValue

end
-- ==== Proof.KernelValue.lean ====
/-
  The kernel's result array. The grid has 32 points; point `t` works on graphs `64 t … 64 t + 63`: its input block is
  rows `64 t + r` of the node features, its output block rows `64 t + r` of the result, and the weights and the bias are
  the same whole arrays at every point. The weights the region finds are the host's transpose of `W`,
  `Wt[d, e] = W[e, d]` — which is how the kernel's product, over (input feature, output feature), meets the
  specification's, stated over `W` as (output, input). So what point `t` writes back is block `t` of
  `Cert.PairwiseLinear.pairwise src W b` (Proof/Spec.lean): entry `(r, i, j, e)` of the block is the edge value of
  graph `64 t + r`. The 32 blocks tile the array (row `g` lies in block `g / 64`), so the array ends at `pairwise`.
-/
import proofs.«171930_j63513976373866_1_alg».proof.Proof.Gen.KernelIdeal.Value
import proofs.«171930_j63513976373866_1_alg».proof.Proof.BlockValue
import Idealize.ShloMosaic.Lib.StableHlo.Run

set_option maxRecDepth 16384

noncomputable section

namespace Cert.KernelIdeal.ArrayValue

open Cert.KernelIdeal Cert.KernelIdeal.Gen Cert.KernelIdeal.Value Idealize.ShloMosaic Idealize.ShloMosaic.TcCoe
open Idealize.ShloMosaic.ValueIdx Idealize.SL.Sem Idealize.ShloMosaic.StableHlo
open Idealize.ShloMosaic.Pipeline (Dat)
open Cert.PairwiseLinear Cert.KernelIdeal.BlockValue

variable (m : (ℓ : Loc nD τ sig) → Buf (Elt Ideal) ℓ) (ρ : Dev nD → PrngReg)

/-! ## The arrays as the region finds them -/

/-- The weights window's array is the host's transpose of the weight argument. -/
theorem weights (c : Dev nD) :
    (V m c main_v0 : S128x128.Idx → EReal)
      = transpose S128x128 [1, 0] (m ((c : Thread nD τ).loc main_arg1)) transposes_S128x128_S128x128_1_0 := by
  dsimp only [Gen.V, Gen.hostOps0]; after_results

/-- Entry `(d, e)` of it is `W[e, d]`. -/
theorem weights_apply (c : Dev nD) (d e : Fin 128) :
    (V m c main_v0 : S128x128.Idx → EReal) (ix2 d e) = m ((c : Thread nD τ).loc main_arg1) (ix2 e d) :=
  (congrFun (weights m c) (ix2 d e)).trans
    (transpose_apply [1, 0] _ transposes_S128x128_S128x128_1_0 (ix2 d e) (ix2 e d)
      (fun b => match b with | ⟨0, _⟩ => rfl | ⟨1, _⟩ => rfl))

/-- The printed index maps over the grid: point `t`'s features block and result block are the `t`-th along the graph
    axis, and every other block index is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 4) = t.val ∧ win0_3.index t (1 : Fin 4) = 0 ∧ win0_3.index t (2 : Fin 4) = 0
    ∧ win0_3.index t (3 : Fin 4) = 0 :=
  (by decide +kernel : ∀ t : Fin grid0.N, _)

/-! ## One block of the specification -/

/-- A block's value is a block of `pairwise`, given where the block's three inputs sit in the arrays: the features of
    the block's graph `y 0` are those of graph `Y 0` of `src`, the weights are `W` transposed, the bias is `b`, and
    the two indices agree on the node and feature coordinates. -/
theorem block_of_pairwise (X : Vec Ideal S64x22x128 .f32) (Wt : Vec Ideal S128x128 .f32) (B : Vec Ideal S128 .f32)
    (src : S2048x22x128.Idx → EReal) (W : S128x128.Idx → EReal) (b : S128.Idx → EReal)
    (y : S64x22x22x128.Idx) (Y : S2048x22x22x128.Idx)
    (hX : ∀ n d, X (ix3 (y 0) n d) = src (ix3 (Y 0) n d)) (hW : ∀ d e, Wt (ix2 d e) = W (ix2 e d))
    (hB : ∀ e, B (ix1 e) = b (ix1 e))
    (h1 : (Y 1).val = (y 1).val) (h2 : (Y 2).val = (y 2).val) (h3 : (Y 3).val = (y 3).val) :
    blockValue X Wt B y = pairwise src W b Y := by
  have e1 : Y 1 = y 1 := Fin.ext h1
  have e2 : Y 2 = y 2 := Fin.ext h2
  have e3 : Y 3 = y 3 := Fin.ext h3
  unfold blockValue pairwise
  rw [e1, e2, e3]
  simp only [hX, hW, hB]

/-! ## What a point writes back, the cover, the array -/

/-- WHAT POINT `t` WRITES BACK is block `t` of `pairwise` of the three argument arrays. -/
theorem flushed_eq (c : Dev nD) (t : Fin cfg0.N) :
    (dats m 0 c).flushed 3 t = ((cfg0.win 3).blk t).view.read (Elt Ideal)
      (pairwise (m ((c : Thread nD τ).loc main_arg0)) (m ((c : Thread nD τ).loc main_arg1)) (m ((c : Thread nD τ).loc main_arg2))) := by
  rw [flushed3_A]
  obtain ⟨a0, a1, a2, w0, w1, b0, o0, o1, o2, o3⟩ := idx_facts t
  funext y
  show out0_A_3 c (grid0.coords t) (ms0_0 t) (hs0_0 t) (ms0_1 t) (hs0_1 t) (ms0_2 t) (hs0_2 t) (ms0_3 t) (hs0_3 t) (iblk m c 0 t) (iblk m c 1 t) (iblk m c 2 t) y
    = pairwise (m ((c : Thread nD τ).loc main_arg0)) (m ((c : Thread nD τ).loc main_arg1)) (m ((c : Thread nD τ).loc main_arg2)) (((cfg0.win 3).blk t).view.emb y)
  refine (block_apply c (grid0.coords t) (ms0_0 t) (hs0_0 t) (ms0_1 t) (hs0_1 t) (ms0_2 t) (hs0_2 t) (ms0_3 t) (hs0_3 t) (iblk m c 0 t) (iblk m c 1 t) (iblk m c 2 t) y).trans ?_
  refine block_of_pairwise (iblk m c 0 t) (iblk m c 1 t) (iblk m c 2 t) _ _ _ y (((cfg0.win 3).blk t).view.emb y) ?_ ?_ ?_ ?_ ?_ ?_
  · intro n d
    show V m c main_arg0 (((cfg0.win 0).blk t).view.emb (ix3 (y 0) n d)) = m ((c : Thread nD τ).loc main_arg0) (ix3 ((((cfg0.win 3).blk t).view.emb y) 0) n d)
    rw [V_main_arg0]
    refine congrArg _ (funext fun a => Fin.ext ?_)
    match a with
    | ⟨0, _⟩ => show win0_0.index t (0 : Fin 3) * 64 + 1 * (y 0).val = win0_3.index t (0 : Fin 4) * 64 + 1 * (y 0).val; omega
    | ⟨1, _⟩ => show win0_0.index t (1 : Fin 3) * 22 + 1 * n.val = n.val; omega
    | ⟨2, _⟩ => show win0_0.index t (2 : Fin 3) * 128 + 1 * d.val = d.val; omega
  · intro d e
    show V m c main_v0 (((cfg0.win 1).blk t).view.emb (ix2 d e)) = m ((c : Thread nD τ).loc main_arg1) (ix2 e d)
    have hi : ((cfg0.win 1).blk t).view.emb (ix2 d e) = ix2 d e := funext fun a => Fin.ext (by
      match a with
      | ⟨0, _⟩ => show win0_1.index t (0 : Fin 2) * 128 + 1 * d.val = d.val; omega
      | ⟨1, _⟩ => show win0_1.index t (1 : Fin 2) * 128 + 1 * e.val = e.val; omega)
    rw [hi]
    exact weights_apply m c d e
  · intro e
    show V m c main_arg2 (((cfg0.win 2).blk t).view.emb (ix1 e)) = m ((c : Thread nD τ).loc main_arg2) (ix1 e)
    rw [V_main_arg2]
    refine congrArg _ (funext fun a => Fin.ext ?_)
    match a with
    | ⟨0, _⟩ => show win0_2.index t (0 : Fin 1) * 128 + 1 * e.val = e.val; omega
  · show win0_3.index t (1 : Fin 4) * 22 + 1 * (y 1).val = (y 1).val; omega
  · show win0_3.index t (2 : Fin 4) * 22 + 1 * (y 2).val = (y 2).val; omega
  · show win0_3.index t (3 : Fin 4) * 128 + 1 * (y 3).val = (y 3).val; omega

/-- An index of the result array is in point `t`'s block iff each coordinate is in the block's range on its axis. -/
theorem mem_blk (t : Fin cfg0.N) (i : S2048x22x22x128.Idx) :
    i ∈ ((cfg0.win 3).blk t).view.set ↔ ∀ a : Fin 4, win0_3.index t a * S64x22x22x128.size a ≤ (i a).val
      ∧ (i a).val < win0_3.index t a * S64x22x22x128.size a + S64x22x22x128.size a := by
  show i ∈ ((View.whole main_v1).slice (win0_3.rect t)).set ↔ _
  rw [View.set_slice_whole, Rect.mem_set_unit]
  exact Iff.rfl

/-- Every index of the result array is in some point's block: graph `g` is in block `g / 64`. -/
theorem cover (i : S2048x22x22x128.Idx) :
    ∃ t : Fin cfg0.N, (cfg0.win 3).flush t = true ∧ i ∈ ((cfg0.win 3).blk t).view.set := by
  have hi0 : (i 0).val < 2048 := (i 0).isLt
  have hi1 : (i 1).val < 22 := (i 1).isLt
  have hi2 : (i 2).val < 22 := (i 2).isLt
  have hi3 : (i 3).val < 128 := (i 3).isLt
  have hN : cfg0.N = 32 := N_0
  refine ⟨⟨(i 0).val / 64, by omega⟩, flush0_3 _, ?_⟩
  rw [mem_blk]
  obtain ⟨-, -, -, -, -, -, o0, o1, o2, o3⟩ := idx_facts ⟨(i 0).val / 64, by omega⟩
  intro a
  match a with
  | ⟨0, _⟩ =>
    show win0_3.index ⟨(i 0).val / 64, _⟩ (0 : Fin 4) * 64 ≤ (i 0).val ∧ (i 0).val < win0_3.index ⟨(i 0).val / 64, _⟩ (0 : Fin 4) * 64 + 64
    rw [o0]; show (i 0).val / 64 * 64 ≤ (i 0).val ∧ (i 0).val < (i 0).val / 64 * 64 + 64; omega
  | ⟨1, _⟩ =>
    show win0_3.index ⟨(i 0).val / 64, _⟩ (1 : Fin 4) * 22 ≤ (i 1).val ∧ (i 1).val < win0_3.index ⟨(i 0).val / 64, _⟩ (1 : Fin 4) * 22 + 22
    rw [o1]; omega
  | ⟨2, _⟩ =>
    show win0_3.index ⟨(i 0).val / 64, _⟩ (2 : Fin 4) * 22 ≤ (i 2).val ∧ (i 2).val < win0_3.index ⟨(i 0).val / 64, _⟩ (2 : Fin 4) * 22 + 22
    rw [o2]; omega
  | ⟨3, _⟩ =>
    show win0_3.index ⟨(i 0).val / 64, _⟩ (3 : Fin 4) * 128 ≤ (i 3).val ∧ (i 3).val < win0_3.index ⟨(i 0).val / 64, _⟩ (3 : Fin 4) * 128 + 128
    rw [o3]; omega

/-- THE ARRAY after the run: `pairwise` of the three argument arrays. -/
theorem final (c : Dev nD) : (dats m 0 c).arrAt 3 cfg0.N
    = pairwise (m ((c : Thread nD τ).loc main_arg0)) (m ((c : Thread nD τ).loc main_arg1)) (m ((c : Thread nD τ).loc main_arg2)) :=
  (dats m 0 c).arrAt_eq_of_cover 3 _ (fun t _ => flushed_eq m c t) (cover)

/-- The run, read: the result array at `pairwise` of the arguments, the arguments unchanged. -/
theorem run : θ_run defs (onTc (τ := τ) (main (F := Ideal))) ⟨m, fun _ => 0, ρ⟩ fun r => ∀ c : Dev nD,
      r.2.mem ((c : Thread nD τ).loc main_v1)
        = pairwise (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.lean ====
/- The proof of `Cert.Claim` (proofs.«171930_j63513976373866_1_alg».proof.Defs).

   The kernel computes, for each of 2048 graphs of 22 nodes with 128 features, the value on every ordered pair of nodes
   `(i, j)` of a linear layer applied to the difference of the two nodes' features. It does so by applying the layer to
   each node first, `y[n, e] = Σ_d src[g, n, d] · W[e, d]`, and subtracting: `out[g, i, j, e] = y[j, e] − y[i, e] + b[e]`.
   The reference subtracts first: `out[g, i, j, e] = Σ_d (src[g, j, d] − src[g, i, d]) · W[e, d] + b[e]`. On the extended
   reals the two agree when the features and the weights are real numbers — distributivity over a difference and the
   splitting of a sum both fail at the infinities — which is what the precondition provides.

   Proof/LibSumOfDifferences.lean  the law, for real terms over a finite index type;
   Proof/Spec.lean              the edge value of one graph, and the whole result `pairwise src W b`;
   Proof/FiniteInputs.lean      under the precondition the features and the weights are real;
   Proof/ReferenceValue.lean    the reference's result is `pairwise`, by the law;
   Proof/TripValue.lean         what one trip of the kernel's loop stores, at an index: one graph's edge values;
   Proof/BlockValue.lean        what the 64 trips leave in the output block at a grid point;
   Proof/KernelValue.lean       what a point writes back is its block of `pairwise` (the weights the region finds are
                                `W` transposed), the 32 blocks tile the array, so the kernel's result is `pairwise`.
   The three frames are the generated ones (the reference's is its generated run with the result dropped); the ideal
   pass rewrote nothing, so `preserves` has no conjunct. -/
import proofs.«171930_j63513976373866_1_alg».proof.Defs
import proofs.«171930_j63513976373866_1_alg».proof.Proof.Gen.Kernel
import proofs.«171930_j63513976373866_1_alg».proof.Proof.Gen.Kernel.Skeleton
import proofs.«171930_j63513976373866_1_alg».proof.Proof.Gen.Kernel.Loops
import proofs.«171930_j63513976373866_1_alg».proof.Proof.Gen.Kernel.Launch
import proofs.«171930_j63513976373866_1_alg».proof.Proof.Gen.Kernel.Points
import proofs.«171930_j63513976373866_1_alg».proof.Proof.Gen.Kernel.Frame
import proofs.«171930_j63513976373866_1_alg».proof.Proof.Gen.KernelIdeal
import proofs.«171930_j63513976373866_1_alg».proof.Proof.Gen.KernelIdeal.Skeleton
import proofs.«171930_j63513976373866_1_alg».proof.Proof.Gen.KernelIdeal.Loops
import proofs.«171930_j63513976373866_1_alg».proof.Proof.Gen.KernelIdeal.Launch
import proofs.«171930_j63513976373866_1_alg».proof.Proof.Gen.KernelIdeal.Points
import proofs.«171930_j63513976373866_1_alg».proof.Proof.Gen.KernelIdeal.Frame
import proofs.«171930_j63513976373866_1_alg».proof.Proof.Gen.ReferenceIdeal
import proofs.«171930_j63513976373866_1_alg».proof.Proof.Gen.KernelIdeal.Value
import proofs.«171930_j63513976373866_1_alg».proof.Proof.Gen.ReferenceIdeal.Run
import proofs.«171930_j63513976373866_1_alg».proof.Proof.Gen.ReferenceIdeal.Read
import proofs.«171930_j63513976373866_1_alg».proof.Proof.Gen.Pre_finite_inputs
import proofs.«171930_j63513976373866_1_alg».proof.Proof.FiniteInputs
import proofs.«171930_j63513976373866_1_alg».proof.Proof.ReferenceValue
import proofs.«171930_j63513976373866_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories that agree on the arguments, under the precondition, both programs end with the result array at
    `pairwise` of the arguments: the kernel by Proof/KernelValue.lean, whatever the arguments hold; the reference by
    Proof/ReferenceValue.lean, because the features and the weights are real numbers (Proof/FiniteInputs.lean). -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hsrc, hW⟩ := Cert.Pre_finite_inputs.Finite.entries_real _ _ _ (hpre c)
  rw [(hagree c).1, (hagree c).2.1, (hagree c).2.2, Cert.ReferenceIdeal.Read.val_main_v8_eq]
  exact Cert.ReferenceIdeal.RefValue.result_eq _ _ _ hsrc hW

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
